-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x256 : Shape := ⟨2, ![128, 256]⟩
abbrev S128 : Shape := ⟨1, ![128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x256 .f32) (main_arg8 : FVec F S128 .f32) (main_arg9 : FVec F S128x256 .f32) (main_arg10 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x128 .f32) (main_arg1 : FVec F S65536x128 .f32) (main_arg2 : FVec F S65536x128 .f32) (main_arg3 : FVec F S128x256 .f32) (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_v13 main_v16
-- ==== Kernel.lean ====
abbrev S65536x128 : Shape := ⟨2, ![65536, 128]⟩
abbrev S128x256 : Shape := ⟨2, ![128, 256]⟩
abbrev S128 : Shape := ⟨1, ![128]⟩
abbrev S512x256 : Shape := ⟨2, ![512, 256]⟩
abbrev S512 : Shape := ⟨1, ![512]⟩
abbrev S512x128 : Shape := ⟨2, ![512, 128]⟩
abbrev S128x512 : Shape := ⟨2, ![128, 512]⟩
abbrev S1x512 : Shape := ⟨2, ![1, 512]⟩
abbrev S4096x128 : Shape := ⟨2, ![4096, 128]⟩
abbrev S4096x512 : Shape := ⟨2, ![4096, 512]⟩

abbrev nBuf : Space → Nat
  | .hbm => 20
  | .vmem => 13
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S512x256, .f32⟩
  | .hbm, ⟨12, _⟩ => ⟨S512, .f32⟩
  | .hbm, ⟨13, _⟩ => ⟨S512x128, .f32⟩
  | .hbm, ⟨14, _⟩ => ⟨S128x512, .f32⟩
  | .hbm, ⟨15, _⟩ => ⟨S512x128, .f32⟩
  | .hbm, ⟨16, _⟩ => ⟨S128x512, .f32⟩
  | .hbm, ⟨17, _⟩ => ⟨S1x512, .f32⟩
  | .hbm, ⟨18, _⟩ => ⟨S65536x128, .f32⟩
  | .hbm, ⟨19, _⟩ => ⟨S65536x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x256_S128x256_S128x256_S128x256_S512x256_d0 : Shape.Concatenates [S128x256, S128x256, S128x256, S128x256] S512x256 0
  concatenates_S128_S128_S128_S128_S512_d0 : Shape.Concatenates [S128, S128, S128, S128] S512 0
  slices_S512x256_S512x128_0_0 : S512x256.Slices ![0, 0] S512x128
  transposes_S512x128_S128x512_1_0 : S512x128.Transposes [1, 0] S128x512
  slices_S512x256_S512x128_0_128 : S512x256.Slices ![0, 128] S512x128
  shapeCasts_S512_S1x512 : S512.ShapeCasts S1x512
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  slices_S4096x512_o0_0_S4096x128 : S4096x512.Slices ![0, 0] S4096x128
  slices_S4096x512_o0_128_S4096x128 : S4096x512.Slices ![0, 128] S4096x128
  slices_S4096x512_o0_256_S4096x128 : S4096x512.Slices ![0, 256] S4096x128
  slices_S4096x512_o0_384_S4096x128 : S4096x512.Slices ![0, 384] S4096x128
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S65536x128.size a
  hwx0_6 : ∀ i : grid0.Coords, EltTy.bits .f32 = 32 ∨ (Rect.block (s := S65536x128) S4096x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S65536x128.size a
  hwx0_7 : ∀ i : grid0.Coords, EltTy.bits .f32 = 32 ∨ (Rect.block (s := S65536x128) S4096x128.size (cc0_transform_7 i) (hinb0_7 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S4096x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x128 : Shape := ⟨2, ![65536, 128]⟩
abbrev S128x256 : Shape := ⟨2, ![128, 256]⟩
abbrev S128 : Shape := ⟨1, ![128]⟩
abbrev S65536x256 : Shape := ⟨2, ![65536, 256]⟩
abbrev S512x256 : Shape := ⟨2, ![512, 256]⟩
abbrev S512 : Shape := ⟨1, ![512]⟩
abbrev S256x512 : Shape := ⟨2, ![256, 512]⟩
abbrev S65536x512 : Shape := ⟨2, ![65536, 512]⟩
abbrev S1x512 : Shape := ⟨2, ![1, 512]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536x128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S65536x256, .f32⟩
  | .hbm, ⟨12, _⟩ => ⟨S512x256, .f32⟩
  | .hbm, ⟨13, _⟩ => ⟨S512, .f32⟩
  | .hbm, ⟨14, _⟩ => ⟨S256x512, .f32⟩
  | .hbm, ⟨15, _⟩ => ⟨S65536x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x128, .f32⟩
  | .hbm, ⟨20, _⟩ => ⟨S65536x128, .f32⟩
  | .hbm, ⟨21, _⟩ => ⟨S65536x128, .f32⟩
  | .hbm, ⟨22, _⟩ => ⟨S65536x128, .f32⟩
  | .hbm, ⟨23, _⟩ => ⟨S65536x128, .f32⟩
  | .hbm, ⟨24, _⟩ => ⟨S65536x128, .f32⟩
  | .hbm, ⟨25, _⟩ => ⟨S_, .f32⟩
  | .hbm, ⟨26, _⟩ => ⟨S65536x128, .f32⟩
  | .hbm, ⟨27, _⟩ => ⟨S65536x128, .f32⟩
  | .hbm, ⟨28, _⟩ => ⟨S_, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S65536x128, .f32⟩
  | .hbm, ⟨33, _⟩ => ⟨S_, .f32⟩
  | .hbm, ⟨34, _⟩ => ⟨S65536x128, .f32⟩
  | .hbm, ⟨35, _⟩ => ⟨S65536x128, .f32⟩
  | .hbm, ⟨36, _⟩ => ⟨S_, .f32⟩
  | .hbm, ⟨37, _⟩ => ⟨S65536x128, .f32⟩
  | .hbm, ⟨38, _⟩ => ⟨S65536x128, .f32⟩
  | .hbm, ⟨39, _⟩ => ⟨S65536x128, .f32⟩
  | .hbm, ⟨40, _⟩ => ⟨S65536x128, .f32⟩
  | .hbm, ⟨41, _⟩ => ⟨S_, .f32⟩
  | .hbm, ⟨42, _⟩ => ⟨S65536x128, .f32⟩
  | .hbm, ⟨43, _⟩ => ⟨S65536x128, .f32⟩
  | .hbm, ⟨44, _⟩ => ⟨S_, .f32⟩
  | .hbm, ⟨45, _⟩ => ⟨S65536x128, .f32⟩
  | .hbm, ⟨46, _⟩ => ⟨S65536x128, .f32⟩
  | .hbm, ⟨47, _⟩ => ⟨S65536x128, .f32⟩
  | .hbm, ⟨48, _⟩ => ⟨S65536x128, .f32⟩
  | .hbm, ⟨49, _⟩ => ⟨S65536x128, .f32⟩
  | .hbm, ⟨50, _⟩ => ⟨S65536x128, .f32⟩
  | .hbm, ⟨51, _⟩ => ⟨S65536x128, .f32⟩
  | .hbm, ⟨52, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S65536x128_S65536x128_S65536x256_d1 : Shape.Concatenates [S65536x128, S65536x128] S65536x256 1
  concatenates_S128x256_S128x256_S128x256_S128x256_S512x256_d0 : Shape.Concatenates [S128x256, S128x256, S128x256, S128x256] S512x256 0
  concatenates_S128_S128_S128_S128_S512_d0 : Shape.Concatenates [S128, S128, S128, S128] S512 0
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S65536x512_S65536x128_0_0 : S65536x512.Slices ![0, 0] S65536x128
  slices_S65536x512_S65536x128_0_128 : S65536x512.Slices ![0, 128] S65536x128
  slices_S65536x512_S65536x128_0_256 : S65536x512.Slices ![0, 256] S65536x128
  slices_S65536x512_S65536x128_0_384 : S65536x512.Slices ![0, 384] S65536x128
  bcast_S_S65536x128 : S_.BroadcastsInDim S65536x128 (![] : Fin 0 → Fin S65536x128.rank)
  dot_S65536x256_S256x512_S65536x512_1_0_0_1_n_n_wf : DotDims.WF S65536x256 S256x512 S65536x512 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf

class Facts : Prop extends Facts₀ where

variable [Facts]
-- ==== Proof.KernelLaunch.lean ====
/-
  The launch of the fused LSTM cell, read at any float instance.

  @main first runs seven host operations — it stacks the four gate weight matrices into one 512x256 matrix and the
  four gate biases into one 512-vector, cuts the stacked matrix into its input half (columns 0..127) and its hidden
  half (columns 128..255), transposes each half to 128x512, and lays the bias out as a 1x512 row — and then the one
  pallas_call over 16 blocks of 4096 batch rows.  At each block the body reads its 4096x128 blocks of input, hidden
  and cell, the two whole 128x512 weight halves and the bias row, and writes one 4096x128 block of the new hidden
  state and one of the new cell state.

  This module states what the arrays hold when the region is entered (`entry`: the host operations folded over the
  launch memory; no host operation writes an argument array), what the body leaves in its two output buffers as a
  function of the six blocks it reads (`newHidden`, `newCell`), the body's triple, the pipeline's proof data, and from
  them: the run of @main to the library's post for a pipelined region (`run`: every window's array at what the proof
  data computes, every other buffer as the region found it), and the frame (`frame`: @main terminates, nothing
  faults, and the eleven argument arrays end as they were launched).
-/
import proofs.«171710_j7988639171179_1_alg».proof.Proof.Gen.Kernel.Launch
import proofs.«171710_j7988639171179_1_alg».proof.Proof.Gen.Kernel.Skeleton
import proofs.«171710_j7988639171179_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the seven host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region: the region is entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The host operations write only the seven intermediate arrays: argument 0 is entered as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 1 is entered as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 2 is entered as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 3 is entered as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 4 is entered as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 5 is entered as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 6 is entered as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 7 is entered as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 8 is entered as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 9 is entered as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 10 is entered as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, whether the point fetches it or keeps
    the block of the point before (the block index has then not moved), for any proof data over `entry` whose body
    leaves the block in place. -/
theorem staged0_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- Input window 1's current staging buffer holds its block at every point, whether the point fetches it or keeps
    the block of the point before (the block index has then not moved), for any proof data over `entry` whose body
    leaves the block in place. -/
theorem staged1_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- Input window 2's current staging buffer holds its block at every point, whether the point fetches it or keeps
    the block of the point before (the block index has then not moved), for any proof data over `entry` whose body
    leaves the block in place. -/
theorem staged2_of {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- Input window 3's current staging buffer holds its block at every point, whether the point fetches it or keeps
    the block of the point before (the block index has then not moved), for any proof data over `entry` whose body
    leaves the block in place. -/
theorem staged3_of {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- Input window 4's current staging buffer holds its block at every point, whether the point fetches it or keeps
    the block of the point before (the block index has then not moved), for any proof data over `entry` whose body
    leaves the block in place. -/
theorem staged4_of {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)
/-- Input window 5's current staging buffer holds its block at every point, whether the point fetches it or keeps
    the block of the point before (the block index has then not moved), for any proof data over `entry` whose body
    leaves the block in place. -/
theorem staged5_of {c : Dev nD} (dat : Dat τ (Elt F) Unit ℕ (UR sig nD τ) ℕ cfg0 c) (hA : dat.A 5 = entry m c (Pipeline.arrRef spec0 5))
    (hafter : ∀ t, dat.after 5 t = block m c 5 t) (t : Fin cfg0.N) (d) : dat.before 5 t d = block m c 5 t :=
  (dat.before_in_eq_fetched 5 rfl (fun _ => rfl) (fun _ _ _ => rfl) (fun t => by rw [hafter]; unfold Dat.blockOf block; rw [hA]; try rfl) t d).trans
    (by unfold Dat.fetched Dat.blockOf block; rw [hA]; try rfl)

/-! ## The frame from a run to the pipelined region's post -/

/-- For any proof data over `entry`, a run of @main to the region's post leaves the eleven argument arrays as launched:
    input, hidden and cell are staged by windows 0, 1, 2 and never written back; the eight gate weights and biases are
    no window's array, and the region leaves them as it found them. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c)⟩) h

/-! ## What the body leaves in its two output buffers -/

/-- The whole 4096x128 block, the whole 128x512 weight half, the whole 1x512 bias row: the body's only rectangles. -/
abbrev whole4096x128 : Rect S4096x128 := Rect.unit (s := S4096x128) ![0, 0] S4096x128.size inb_S4096x128_S4096x128_0_0
abbrev whole128x512 : Rect S128x512 := Rect.unit (s := S128x512) ![0, 0] S128x512.size inb_S128x512_S128x512_0_0
abbrev whole1x512 : Rect S1x512 := Rect.unit (s := S1x512) ![0, 0] S1x512.size inb_S1x512_S1x512_0_0

/-- The new hidden block, from the blocks of input `x`, hidden `h`, cell `cl`, the weight halves `wi`, `wh` and the bias row
    `b`: the one store into window 6's buffer, o-gate times tanh of the new cell. -/
def newHidden (x h cl : Vec F S4096x128 .f32) (wi wh : Vec F S128x512 .f32) (b : Vec F S1x512 .f32) : Vec F S4096x128 .f32 :=
  View.canon [⟨whole4096x128, k0_pay3 (View.ld x whole4096x128) (View.ld h whole4096x128) (View.ld wi whole128x512) (View.ld wh whole128x512) (View.ld b whole1x512) (View.ld cl whole4096x128)⟩]

/-- The new cell block: the one store into window 7's buffer, f-gate times cell plus i-gate times g-gate. -/
def newCell (x h cl : Vec F S4096x128 .f32) (wi wh : Vec F S128x512 .f32) (b : Vec F S1x512 .f32) : Vec F S4096x128 .f32 :=
  View.canon [⟨whole4096x128, k0_pay2 (View.ld x whole4096x128) (View.ld h whole4096x128) (View.ld wi whole128x512) (View.ld wh whole128x512) (View.ld b whole1x512) (View.ld cl whole4096x128)⟩]

/-- One store of the whole block covers the buffer. -/
theorem whole_cover (p0 : Vec F S4096x128 .f32) (y : S4096x128.Idx) :
    ∃ pc ∈ ([⟨whole4096x128, p0⟩] : List (View.Piece (Elt F) S4096x128 .f32)), y ∈ pc.1.set :=
  View.cover_of_tiled [⟨whole4096x128, p0⟩] S4096x128.size (by rfl) y

/-! ## The body's triple -/

set_option maxHeartbeats 1000000 in
/-- The body on whole staging memrefs — the six inputs' at contents `x h cl wi wh b`, the two outputs' at anything — runs
    to a continuation that holds the inputs' as they were and the outputs' at `newHidden` and `newCell` of the inputs'. -/
theorem body_triple (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S128x512 .f32) (harg4 : arg4.IsWhole)
    (arg5 : Memref sig .tc .vmem S128x512 .f32) (harg5 : arg5.IsWhole) (arg6 : Memref sig .tc .vmem S1x512 .f32) (harg6 : arg6.IsWhole)
    (arg7 : Memref sig .tc .vmem S4096x128 .f32) (harg7 : arg7.IsWhole) (arg8 : Memref sig .tc .vmem S4096x128 .f32) (harg8 : arg8.IsWhole)
    (x h cl : Vec F S4096x128 .f32) (wi wh : Vec F S128x512 .f32) (b : Vec F S1x512 .f32) (K : PUnit → sProp 𝕄) :
    iprop(owns (c : Thread nD τ) arg1 fullShare x ∗ owns (c : Thread nD τ) arg2 fullShare h ∗ owns (c : Thread nD τ) arg3 fullShare cl
        ∗ owns (c : Thread nD τ) arg4 fullShare wi ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cl
            ∗ owns (c : Thread nD τ) arg4 fullShare wi ∗ owns (c : Thread nD τ) arg5 fullShare wh ∗ owns (c : Thread nD τ) arg6 fullShare b
            ∗ owns (c : Thread nD τ) arg7 fullShare (newHidden x h cl wi wh b) ∗ owns (c : Thread nD τ) arg8 fullShare (newCell x h cl wi wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_cover _)
  iexists _; isplitr
  swap; · iexact H7
  ipureintro
  exact View.read_writes_eq_canon _ _ _ (whole_cover _)

/-! ## The pipeline's proof data -/

/-- The proof data of the pipeline on core `c`: the arrays as the region finds them; after the body at point `t` each
    input's buffer still at its block, the two outputs' at `newHidden` and `newCell` of the six input blocks; the
    invariant is the scoped rest and the generator register, untouched; nothing owed; full shares. -/
def pdat (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => newHidden (block m c 0 t) (block m c 1 t) (block m c 2 t) (block m c 3 t) (block m c 4 t) (block m c 5 t)
    | ⟨7, _⟩ => newCell (block m c 0 t) (block m c 1 t) (block m c 2 t) (block m c 3 t) (block m c 4 t) (block m c 5 t)
  Φ _ := Pipeline.ΦA spec0 c
  q _ := fullShare
  owed _ := 0

/-- Its arrays are the region-entry contents (the definition projected; `entry` stays folded). -/
theorem pdat_A (c : Dev nD) (w : Fin cfg0.W) : (pdat m 0 c).A w = entry m c (Pipeline.arrRef spec0 w) := by
  dsimp only [pdat]

theorem pdat_after0 (c : Dev nD) (t : Fin cfg0.N) : (pdat m 0 c).after 0 t = block m c 0 t := by dsimp only [pdat]
theorem pdat_after1 (c : Dev nD) (t : Fin cfg0.N) : (pdat m 0 c).after 1 t = block m c 1 t := by dsimp only [pdat]
theorem pdat_after2 (c : Dev nD) (t : Fin cfg0.N) : (pdat m 0 c).after 2 t = block m c 2 t := by dsimp only [pdat]
theorem pdat_after3 (c : Dev nD) (t : Fin cfg0.N) : (pdat m 0 c).after 3 t = block m c 3 t := by dsimp only [pdat]
theorem pdat_after4 (c : Dev nD) (t : Fin cfg0.N) : (pdat m 0 c).after 4 t = block m c 4 t := by dsimp only [pdat]
theorem pdat_after5 (c : Dev nD) (t : Fin cfg0.N) : (pdat m 0 c).after 5 t = block m c 5 t := by dsimp only [pdat]
theorem pdat_after6 (c : Dev nD) (t : Fin cfg0.N) : (pdat m 0 c).after 6 t = newHidden (block m c 0 t) (block m c 1 t) (block m c 2 t) (block m c 3 t) (block m c 4 t) (block m c 5 t) := by dsimp only [pdat]
theorem pdat_after7 (c : Dev nD) (t : Fin cfg0.N) : (pdat m 0 c).after 7 t = newCell (block m c 0 t) (block m c 1 t) (block m c 2 t) (block m c 3 t) (block m c 4 t) (block m c 5 t) := by dsimp only [pdat]

theorem pdat_before0 (c : Dev nD) (t : Fin cfg0.N) (d) : (pdat m 0 c).before 0 t d = block m c 0 t :=
  staged0_of m (pdat m 0 c) (pdat_A m c 0) (pdat_after0 m c) t d
theorem pdat_before1 (c : Dev nD) (t : Fin cfg0.N) (d) : (pdat m 0 c).before 1 t d = block m c 1 t :=
  staged1_of m (pdat m 0 c) (pdat_A m c 1) (pdat_after1 m c) t d
theorem pdat_before2 (c : Dev nD) (t : Fin cfg0.N) (d) : (pdat m 0 c).before 2 t d = block m c 2 t :=
  staged2_of m (pdat m 0 c) (pdat_A m c 2) (pdat_after2 m c) t d
theorem pdat_before3 (c : Dev nD) (t : Fin cfg0.N) (d) : (pdat m 0 c).before 3 t d = block m c 3 t :=
  staged3_of m (pdat m 0 c) (pdat_A m c 3) (pdat_after3 m c) t d
theorem pdat_before4 (c : Dev nD) (t : Fin cfg0.N) (d) : (pdat m 0 c).before 4 t d = block m c 4 t :=
  staged4_of m (pdat m 0 c) (pdat_A m c 4) (pdat_after4 m c) t d
theorem pdat_before5 (c : Dev nD) (t : Fin cfg0.N) (d) : (pdat m 0 c).before 5 t d = block m c 5 t :=
  staged5_of m (pdat m 0 c) (pdat_A m c 5) (pdat_after5 m c) t d

/-! ## The body obligation, at a generic point -/

/-- What the body is called with at point `t`, the windows one by one, -/
def callPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d)))

/-- and what it returns. -/
def callPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t))

/-- The body at any point: the inputs' memrefs hold their blocks, so the triple applies; the invariant and the core's
    owed signals pass through unread. -/
theorem body_at_point (c : Dev nD) (t : Fin cfg0.N) :
    callPre m c t ⊢ wp frame (wpE (defs₀ (F := F)) Variants.none c none) Set.univ (bodyAt0 t) (fun _ => callPost m c t) := by
  unfold callPre callPost bodyAt0
  simp only [pdat_before0, pdat_before1, pdat_before2, pdat_before3, pdat_before4, pdat_before5]
  rw [show (pdat m 0 c).Φ t.succ = (pdat m 0 c).Φ t.castSucc from rfl,
    show (pdat m 0 c).owesAt () t.succ = (pdat m 0 c).owesAt () t.castSucc from rfl,
    pdat_after0, pdat_after1, pdat_after2, pdat_after3, pdat_after4, pdat_after5, pdat_after6, pdat_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (block m c 0 t) (block m c 1 t) (block m c 2 t) (block m c 3 t) (block m c 4 t) (block m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (pdat (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has every
    window's array at what the library computes from the proof data (an input as entered, an output overwritten block by
    block by what the body left) and every other unscoped buffer as the region found it. -/
theorem run : θ_run defs (onTc (τ := τ) (main (F := F))) (s₀ m ρ) (Pipeline.FramePost cfgs (pdat m) 0 (entry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := entry m) (hmain := main_to_region m Variants.none) (hA := pdat_A m) (hΦ := fun _ _ => rfl)

/-- The frame: @main terminates without a fault and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_run m ρ (pdat m) (pdat_A m) (run m ρ)

end Cert.Kernel.Fr

end
-- ==== Proof.KernelIdealLaunch.lean ====
/-
  The launch of the fused LSTM cell, read at any float instance.

  @main first runs seven host operations — it stacks the four gate weight matrices into one 512x256 matrix and the
  four gate biases into one 512-vector, cuts the stacked matrix into its input half (columns 0..127) and its hidden
  half (columns 128..255), transposes each half to 128x512, and lays the bias out as a 1x512 row — and then the one
  pallas_call over 16 blocks of 4096 batch rows.  At each block the body reads its 4096x128 blocks of input, hidden
  and cell, the two whole 128x512 weight halves and the bias row, and writes one 4096x128 block of the new hidden
  state and one of the new cell state.

  This module states what the arrays hold when the region is entered (`entry`: the host operations folded over the
  launch memory; no host operation writes an argument array), what the body leaves in its two output buffers as a
  function of the six blocks it reads (`newHidden`, `newCell`), the body's triple, the pipeline's proof data, and from
  them: the run of @main to the library's post for a pipelined region (`run`: every window's array at what the proof
  data computes, every other buffer as the region found it), and the frame (`frame`: @main terminates, nothing
  faults, and the eleven argument arrays end as they were launched).
-/
import proofs.«171710_j7988639171179_1_alg».proof.Proof.Gen.KernelIdeal.Launch
import proofs.«171710_j7988639171179_1_alg».proof.Proof.Gen.KernelIdeal.Skeleton
import proofs.«171710_j7988639171179_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the seven host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region: the region is entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The host operations write only the seven intermediate arrays: argument 0 is entered as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 1 is entered as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 2 is entered as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 3 is entered as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 4 is entered as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 5 is entered as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 6 is entered as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 7 is entered as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 8 is entered as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 9 is entered as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations write only the seven intermediate arrays: argument 10 is entered as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, whether the point fetches it or keeps
    the block of the point before (the block index has then not moved), for any proof data over `entry` whose body
    leaves the block in place. -/
theorem staged0_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- Input window 1's current staging buffer holds its block at every point, whether the point fetches it or keeps
    the block of the point before (the block index has then not moved), for any proof data over `entry` whose body
    leaves the block in place. -/
theorem staged1_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- Input window 2's current staging buffer holds its block at every point, whether the point fetches it or keeps
    the block of the point before (the block index has then not moved), for any proof data over `entry` whose body
    leaves the block in place. -/
theorem staged2_of {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- Input window 3's current staging buffer holds its block at every point, whether the point fetches it or keeps
    the block of the point before (the block index has then not moved), for any proof data over `entry` whose body
    leaves the block in place. -/
theorem staged3_of {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- Input window 4's current staging buffer holds its block at every point, whether the point fetches it or keeps
    the block of the point before (the block index has then not moved), for any proof data over `entry` whose body
    leaves the block in place. -/
theorem staged4_of {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)
/-- Input window 5's current staging buffer holds its block at every point, whether the point fetches it or keeps
    the block of the point before (the block index has then not moved), for any proof data over `entry` whose body
    leaves the block in place. -/
theorem staged5_of {c : Dev nD} (dat : Dat τ (Elt F) Unit ℕ (UR sig nD τ) ℕ cfg0 c) (hA : dat.A 5 = entry m c (Pipeline.arrRef spec0 5))
    (hafter : ∀ t, dat.after 5 t = block m c 5 t) (t : Fin cfg0.N) (d) : dat.before 5 t d = block m c 5 t :=
  (dat.before_in_eq_fetched 5 rfl (fun _ => rfl) (fun _ _ _ => rfl) (fun t => by rw [hafter]; unfold Dat.blockOf block; rw [hA]; try rfl) t d).trans
    (by unfold Dat.fetched Dat.blockOf block; rw [hA]; try rfl)

/-! ## The frame from a run to the pipelined region's post -/

/-- For any proof data over `entry`, a run of @main to the region's post leaves the eleven argument arrays as launched:
    input, hidden and cell are staged by windows 0, 1, 2 and never written back; the eight gate weights and biases are
    no window's array, and the region leaves them as it found them. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c)⟩) h

/-! ## What the body leaves in its two output buffers -/

/-- The whole 4096x128 block, the whole 128x512 weight half, the whole 1x512 bias row: the body's only rectangles. -/
abbrev whole4096x128 : Rect S4096x128 := Rect.unit (s := S4096x128) ![0, 0] S4096x128.size inb_S4096x128_S4096x128_0_0
abbrev whole128x512 : Rect S128x512 := Rect.unit (s := S128x512) ![0, 0] S128x512.size inb_S128x512_S128x512_0_0
abbrev whole1x512 : Rect S1x512 := Rect.unit (s := S1x512) ![0, 0] S1x512.size inb_S1x512_S1x512_0_0

/-- The new hidden block, from the blocks of input `x`, hidden `h`, cell `cl`, the weight halves `wi`, `wh` and the bias row
    `b`: the one store into window 6's buffer, o-gate times tanh of the new cell. -/
def newHidden (x h cl : Vec F S4096x128 .f32) (wi wh : Vec F S128x512 .f32) (b : Vec F S1x512 .f32) : Vec F S4096x128 .f32 :=
  View.canon [⟨whole4096x128, k0_pay3 (View.ld x whole4096x128) (View.ld h whole4096x128) (View.ld wi whole128x512) (View.ld wh whole128x512) (View.ld b whole1x512) (View.ld cl whole4096x128)⟩]

/-- The new cell block: the one store into window 7's buffer, f-gate times cell plus i-gate times g-gate. -/
def newCell (x h cl : Vec F S4096x128 .f32) (wi wh : Vec F S128x512 .f32) (b : Vec F S1x512 .f32) : Vec F S4096x128 .f32 :=
  View.canon [⟨whole4096x128, k0_pay2 (View.ld x whole4096x128) (View.ld h whole4096x128) (View.ld wi whole128x512) (View.ld wh whole128x512) (View.ld b whole1x512) (View.ld cl whole4096x128)⟩]

/-- One store of the whole block covers the buffer. -/
theorem whole_cover (p0 : Vec F S4096x128 .f32) (y : S4096x128.Idx) :
    ∃ pc ∈ ([⟨whole4096x128, p0⟩] : List (View.Piece (Elt F) S4096x128 .f32)), y ∈ pc.1.set :=
  View.cover_of_tiled [⟨whole4096x128, p0⟩] S4096x128.size (by rfl) y

/-! ## The body's triple -/

set_option maxHeartbeats 1000000 in
/-- The body on whole staging memrefs — the six inputs' at contents `x h cl wi wh b`, the two outputs' at anything — runs
    to a continuation that holds the inputs' as they were and the outputs' at `newHidden` and `newCell` of the inputs'. -/
theorem body_triple (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S128x512 .f32) (harg4 : arg4.IsWhole)
    (arg5 : Memref sig .tc .vmem S128x512 .f32) (harg5 : arg5.IsWhole) (arg6 : Memref sig .tc .vmem S1x512 .f32) (harg6 : arg6.IsWhole)
    (arg7 : Memref sig .tc .vmem S4096x128 .f32) (harg7 : arg7.IsWhole) (arg8 : Memref sig .tc .vmem S4096x128 .f32) (harg8 : arg8.IsWhole)
    (x h cl : Vec F S4096x128 .f32) (wi wh : Vec F S128x512 .f32) (b : Vec F S1x512 .f32) (K : PUnit → sProp 𝕄) :
    iprop(owns (c : Thread nD τ) arg1 fullShare x ∗ owns (c : Thread nD τ) arg2 fullShare h ∗ owns (c : Thread nD τ) arg3 fullShare cl
        ∗ owns (c : Thread nD τ) arg4 fullShare wi ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cl
            ∗ owns (c : Thread nD τ) arg4 fullShare wi ∗ owns (c : Thread nD τ) arg5 fullShare wh ∗ owns (c : Thread nD τ) arg6 fullShare b
            ∗ owns (c : Thread nD τ) arg7 fullShare (newHidden x h cl wi wh b) ∗ owns (c : Thread nD τ) arg8 fullShare (newCell x h cl wi wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_cover _)
  iexists _; isplitr
  swap; · iexact H7
  ipureintro
  exact View.read_writes_eq_canon _ _ _ (whole_cover _)

/-! ## The pipeline's proof data -/

/-- The proof data of the pipeline on core `c`: the arrays as the region finds them; after the body at point `t` each
    input's buffer still at its block, the two outputs' at `newHidden` and `newCell` of the six input blocks; the
    invariant is the scoped rest and the generator register, untouched; nothing owed; full shares. -/
def pdat (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => newHidden (block m c 0 t) (block m c 1 t) (block m c 2 t) (block m c 3 t) (block m c 4 t) (block m c 5 t)
    | ⟨7, _⟩ => newCell (block m c 0 t) (block m c 1 t) (block m c 2 t) (block m c 3 t) (block m c 4 t) (block m c 5 t)
  Φ _ := Pipeline.ΦA spec0 c
  q _ := fullShare
  owed _ := 0

/-- Its arrays are the region-entry contents (the definition projected; `entry` stays folded). -/
theorem pdat_A (c : Dev nD) (w : Fin cfg0.W) : (pdat m 0 c).A w = entry m c (Pipeline.arrRef spec0 w) := by
  dsimp only [pdat]

theorem pdat_after0 (c : Dev nD) (t : Fin cfg0.N) : (pdat m 0 c).after 0 t = block m c 0 t := by dsimp only [pdat]
theorem pdat_after1 (c : Dev nD) (t : Fin cfg0.N) : (pdat m 0 c).after 1 t = block m c 1 t := by dsimp only [pdat]
theorem pdat_after2 (c : Dev nD) (t : Fin cfg0.N) : (pdat m 0 c).after 2 t = block m c 2 t := by dsimp only [pdat]
theorem pdat_after3 (c : Dev nD) (t : Fin cfg0.N) : (pdat m 0 c).after 3 t = block m c 3 t := by dsimp only [pdat]
theorem pdat_after4 (c : Dev nD) (t : Fin cfg0.N) : (pdat m 0 c).after 4 t = block m c 4 t := by dsimp only [pdat]
theorem pdat_after5 (c : Dev nD) (t : Fin cfg0.N) : (pdat m 0 c).after 5 t = block m c 5 t := by dsimp only [pdat]
theorem pdat_after6 (c : Dev nD) (t : Fin cfg0.N) : (pdat m 0 c).after 6 t = newHidden (block m c 0 t) (block m c 1 t) (block m c 2 t) (block m c 3 t) (block m c 4 t) (block m c 5 t) := by dsimp only [pdat]
theorem pdat_after7 (c : Dev nD) (t : Fin cfg0.N) : (pdat m 0 c).after 7 t = newCell (block m c 0 t) (block m c 1 t) (block m c 2 t) (block m c 3 t) (block m c 4 t) (block m c 5 t) := by dsimp only [pdat]

theorem pdat_before0 (c : Dev nD) (t : Fin cfg0.N) (d) : (pdat m 0 c).before 0 t d = block m c 0 t :=
  staged0_of m (pdat m 0 c) (pdat_A m c 0) (pdat_after0 m c) t d
theorem pdat_before1 (c : Dev nD) (t : Fin cfg0.N) (d) : (pdat m 0 c).before 1 t d = block m c 1 t :=
  staged1_of m (pdat m 0 c) (pdat_A m c 1) (pdat_after1 m c) t d
theorem pdat_before2 (c : Dev nD) (t : Fin cfg0.N) (d) : (pdat m 0 c).before 2 t d = block m c 2 t :=
  staged2_of m (pdat m 0 c) (pdat_A m c 2) (pdat_after2 m c) t d
theorem pdat_before3 (c : Dev nD) (t : Fin cfg0.N) (d) : (pdat m 0 c).before 3 t d = block m c 3 t :=
  staged3_of m (pdat m 0 c) (pdat_A m c 3) (pdat_after3 m c) t d
theorem pdat_before4 (c : Dev nD) (t : Fin cfg0.N) (d) : (pdat m 0 c).before 4 t d = block m c 4 t :=
  staged4_of m (pdat m 0 c) (pdat_A m c 4) (pdat_after4 m c) t d
theorem pdat_before5 (c : Dev nD) (t : Fin cfg0.N) (d) : (pdat m 0 c).before 5 t d = block m c 5 t :=
  staged5_of m (pdat m 0 c) (pdat_A m c 5) (pdat_after5 m c) t d

/-! ## The body obligation, at a generic point -/

/-- What the body is called with at point `t`, the windows one by one, -/
def callPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d)))

/-- and what it returns. -/
def callPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t))

/-- The body at any point: the inputs' memrefs hold their blocks, so the triple applies; the invariant and the core's
    owed signals pass through unread. -/
theorem body_at_point (c : Dev nD) (t : Fin cfg0.N) :
    callPre m c t ⊢ wp frame (wpE (defs₀ (F := F)) Variants.none c none) Set.univ (bodyAt0 t) (fun _ => callPost m c t) := by
  unfold callPre callPost bodyAt0
  simp only [pdat_before0, pdat_before1, pdat_before2, pdat_before3, pdat_before4, pdat_before5]
  rw [show (pdat m 0 c).Φ t.succ = (pdat m 0 c).Φ t.castSucc from rfl,
    show (pdat m 0 c).owesAt () t.succ = (pdat m 0 c).owesAt () t.castSucc from rfl,
    pdat_after0, pdat_after1, pdat_after2, pdat_after3, pdat_after4, pdat_after5, pdat_after6, pdat_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (block m c 0 t) (block m c 1 t) (block m c 2 t) (block m c 3 t) (block m c 4 t) (block m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (pdat (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has every
    window's array at what the library computes from the proof data (an input as entered, an output overwritten block by
    block by what the body left) and every other unscoped buffer as the region found it. -/
theorem run : θ_run defs (onTc (τ := τ) (main (F := F))) (s₀ m ρ) (Pipeline.FramePost cfgs (pdat m) 0 (entry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := entry m) (hmain := main_to_region m Variants.none) (hA := pdat_A m) (hΦ := fun _ _ => rfl)

/-- The frame: @main terminates without a fault and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_run m ρ (pdat m) (pdat_A m) (run m ρ)

end Cert.KernelIdeal.Fr

end
-- ==== Proof.LstmSpec.lean ====
/-
  The LSTM cell as one function of its arrays, over the extended reals.

  For a batch row r the 512 gate pre-activations are
      pre r j = (sum over k < 128 of x(r,k) * W(j,k)) + (sum over k < 128 of h(r,k) * W(j,128+k)) + b(j),
  W the four gate weight matrices stacked on their rows (512 x 256: input columns first, hidden columns after) and b the
  four gate biases stacked (512).  Columns 0..127 of pre are the forget gate's, 128..255 the input gate's, 256..383 the
  output gate's, 384..511 the cell candidate's.  With s the logistic function,
      cell'(r,q)   = s(pre r q) * cell(r,q) + s(pre r (128+q)) * tanh(pre r (384+q)),
      hidden'(r,q) = s(pre r (256+q)) * tanh(cell'(r,q)).
  A product of the joined row [x(r,.), h(r,.)] with a row of W is the sum of the two half products: a finite sum over
  256 positions is the sum over the first 128 plus the sum over the last 128, in any additive commutative monoid, so no
  entry needs to be finite.
-/
import Idealize.ShloMosaic.PureOps.Ideal
import Idealize.ShloMosaic.Lib.ValueIdx

noncomputable section

open scoped BigOperators

namespace Cert.Lstm

open Idealize.ShloMosaic Idealize.ShloMosaic.ValueIdx

/-- The shapes: a batch array, the stacked weights, the stacked biases. -/
abbrev Batch : Shape := ⟨2, ![65536, 128]⟩
abbrev Stack : Shape := ⟨2, ![512, 256]⟩
abbrev Bias : Shape := ⟨1, ![512]⟩

/-- Position k of the input half and of the hidden half of a weight row. -/
abbrev lo (k : Fin 128) : Fin 256 := ⟨k.val, by have := k.isLt; omega⟩
abbrev hi (k : Fin 128) : Fin 256 := ⟨128 + k.val, by have := k.isLt; omega⟩

/-- Column q of the forget, input, output and candidate gates among the 512 pre-activations. -/
abbrev colF (q : Fin 128) : Fin 512 := ⟨q.val, by have := q.isLt; omega⟩
abbrev colI (q : Fin 128) : Fin 512 := ⟨128 + q.val, by have := q.isLt; omega⟩
abbrev colO (q : Fin 128) : Fin 512 := ⟨256 + q.val, by have := q.isLt; omega⟩
abbrev colG (q : Fin 128) : Fin 512 := ⟨384 + q.val, by have := q.isLt; omega⟩

/-- The pre-activation of gate column j for batch row r. -/
def pre (x h : Batch.Idx → EReal) (W : Stack.Idx → EReal) (b : Bias.Idx → EReal) (r : Fin 65536) (j : Fin 512) : EReal :=
  (∑ k : Fin 128, x (ix2 r k) * W (ix2 j (lo k))) + (∑ k : Fin 128, h (ix2 r k) * W (ix2 j (hi k))) + b (ix1 j)

/-- The new cell state at (r, q). -/
def cellAt (x h cl : Batch.Idx → EReal) (W : Stack.Idx → EReal) (b : Bias.Idx → EReal) (r : Fin 65536) (q : Fin 128) : EReal :=
  Ideal.logistic (pre x h W b r (colF q)) * cl (ix2 r q) + Ideal.logistic (pre x h W b r (colI q)) * Ideal.tanh (pre x h W b r (colG q))

/-- The new hidden state at (r, q). -/
def hiddenAt (x h cl : Batch.Idx → EReal) (W : Stack.Idx → EReal) (b : Bias.Idx → EReal) (r : Fin 65536) (q : Fin 128) : EReal :=
  Ideal.logistic (pre x h W b r (colO q)) * Ideal.tanh (cellAt x h cl W b r q)

/-- The two result arrays. -/
def newCell (x h cl : Batch.Idx → EReal) (W : Stack.Idx → EReal) (b : Bias.Idx → EReal) : Batch.Idx → EReal :=
  fun i => cellAt x h cl W b (i 0) (i 1)
def newHidden (x h cl : Batch.Idx → EReal) (W : Stack.Idx → EReal) (b : Bias.Idx → EReal) : Batch.Idx → EReal :=
  fun i => hiddenAt x h cl W b (i 0) (i 1)

theorem newCell_ix2 (x h cl : Batch.Idx → EReal) (W : Stack.Idx → EReal) (b : Bias.Idx → EReal) (r : Fin 65536) (q : Fin 128) :
    newCell x h cl W b (ix2 r q) = cellAt x h cl W b r q := rfl
theorem newHidden_ix2 (x h cl : Batch.Idx → EReal) (W : Stack.Idx → EReal) (b : Bias.Idx → EReal) (r : Fin 65536) (q : Fin 128) :
    newHidden x h cl W b (ix2 r q) = hiddenAt x h cl W b r q := rfl

/-- A sum over 256 positions is the sum over the first 128 plus the sum over the last 128. -/
theorem sum_halves (f : Fin 256 → EReal) : (∑ k : Fin 256, f k) = (∑ k : Fin 128, f (lo k)) + ∑ k : Fin 128, f (hi k) :=
  Fin.sum_univ_add (a := 128) (b := 128) (fun i : Fin (128 + 128) => f i)

/-- The f32 word of 1.0 is the real number one. -/
theorem one_f32 : Ideal.ofBits .f32 0x3F800000#32 = 1 := by simp [Ideal.ofBits, Ideal.ieee, -EReal.coe_mul]; norm_num

/-- One over one plus e to the minus g, spelt with the f32 word of 1.0, is the logistic function at g. -/
theorem logistic_spelt (g : EReal) :
    Ideal.div (Ideal.ofBits .f32 0x3F800000#32) (Ideal.ofBits .f32 0x3F800000#32 + Ideal.exp (-g)) = Ideal.logistic g := by
  rw [one_f32]; rfl

end Cert.Lstm

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.KernelBlock.lean ====
/-
  One block of the kernel's body at the extended reals, read entry by entry.

  The body's first payload is the 4096 x 512 array of gate pre-activations of the block's rows: the product of the input
  block with the input weight half, plus the product of the hidden block with the hidden weight half, plus the bias row
  broadcast down the rows.  Rounding an operand to bf16 on its way into the matrix unit is the identity at the extended
  reals, and a product into the zero accumulator is the plain sum over the 128 inner positions.  The second payload (the
  new cell block) and the third (the new hidden block) cut the four gate column ranges out of the first and combine
  them entry by entry.  When the blocks are rows of the batch arrays and the weight halves and the bias row are read off
  the stacked weights and biases, the two payloads at (p, q) are the cell's functions at the block's row p.
-/
import proofs.«171710_j7988639171179_1_alg».proof.Proof.Gen.KernelIdeal.Skeleton
import proofs.«171710_j7988639171179_1_alg».proof.Proof.LstmSpec
import proofs.«171710_j7988639171179_1_alg».proof.Proof.LibDotIx2
import Idealize.ShloMosaic.Lib.Pipeline.Value
import Idealize.ShloMosaic.Lib.ValueLayout
import Idealize.ShloMosaic.PureOps.Ideal.Laws

noncomputable section

open scoped BigOperators

namespace Cert.KernelIdeal.Blk

open Cert.KernelIdeal Cert.KernelIdeal.Gen Cert.Lstm
open Idealize.ShloMosaic Idealize.ShloMosaic.ValueIdx

/-- The body's matrix products contract the left operand's columns with the right operand's rows and batch nothing. -/
theorem plainDot : PlainDot (M := 4096) (K := 128) (N := 512) dot_S4096x128_S128x512_S4096x512_1_0_0_1_n_n where
  rank := rfl
  size := rfl
  l0 := fun i q => by
    unfold DotDims.lhsIdx
    rw [dif_neg (show ¬(0 : Fin S4096x128.rank) ∈ dot_S4096x128_S128x512_S4096x512_1_0_0_1_n_n.lhsBatch by decide),
      dif_pos (show (0 : Fin S4096x128.rank) ∈ dot_S4096x128_S128x512_S4096x512_1_0_0_1_n_n.lhsNonContracting by decide)]
    rfl
  l1 := fun i q => dot_S4096x128_S128x512_S4096x512_1_0_0_1_n_n.lhsIdx_val_of_single rfl i q
  r0 := fun i q => dot_S4096x128_S128x512_S4096x512_1_0_0_1_n_n.rhsIdx_val_of_single rfl i q
  r1 := fun i q => by
    unfold DotDims.rhsIdx
    rw [dif_neg (show ¬(1 : Fin S128x512.rank) ∈ dot_S4096x128_S128x512_S4096x512_1_0_0_1_n_n.rhsBatch by decide),
      dif_pos (show (1 : Fin S128x512.rank) ∈ dot_S4096x128_S128x512_S4096x512_1_0_0_1_n_n.rhsNonContracting by decide)]
    rfl

variable (x h cl : Vec Ideal S4096x128 .f32) (wi wh : Vec Ideal S128x512 .f32) (b : Vec Ideal S1x512 .f32)

/-- The pre-activations of the block at (p, j): the two half products and the bias row's entry. -/
theorem pre_block (p : Fin 4096) (j : Fin 512) :
    k0_pay1 (F := Ideal) x h wi wh b (ix2 p j)
      = (∑ k : Fin 128, (x (ix2 p k) : EReal) * (wi (ix2 k j) : EReal)) + (∑ k : Fin 128, (h (ix2 p k) : EReal) * (wh (ix2 k j) : EReal))
        + (b (ix2 (0 : Fin 1) j) : EReal) := by
  unfold k0_pay1
  simp only [addf_apply, Idealize.ShloMosaic.matmul, shapeCast_self]
  rw [matmul_zero_ix2_any plainDot none, matmul_zero_ix2_any plainDot none, broadcastTo_1b_ab_apply]
  rfl

/-- The new cell block at (p, q): the forget gate times the cell plus the input gate times the candidate. -/
theorem cell_block (p : Fin 4096) (q : Fin 128) :
    k0_pay2 (F := Ideal) x h wi wh b cl (ix2 p q)
      = Ideal.logistic (k0_pay1 (F := Ideal) x h wi wh b (ix2 p (colF q))) * (cl (ix2 p q) : EReal)
        + Ideal.logistic (k0_pay1 (F := Ideal) x h wi wh b (ix2 p (colI q))) * Ideal.tanh (k0_pay1 (F := Ideal) x h wi wh b (ix2 p (colG q))) := by
  unfold k0_pay2
  generalize k0_pay1 (F := Ideal) x h wi wh b = P
  have eF : extractStridedSlice S4096x128 ![0, 0] P slices_S4096x512_o0_0_S4096x128 (ix2 p q) = P (ix2 p (colF q)) :=
    slice2_axis1_apply 0 P _ p q (colF q) (Nat.zero_add _).symm
  have eI : extractStridedSlice S4096x128 ![0, 128] P slices_S4096x512_o0_128_S4096x128 (ix2 p q) = P (ix2 p (colI q)) :=
    slice2_axis1_apply 128 P _ p q (colI q) rfl
  have eG : extractStridedSlice S4096x128 ![0, 384] P slices_S4096x512_o0_384_S4096x128 (ix2 p q) = P (ix2 p (colG q)) :=
    slice2_axis1_apply 384 P _ p q (colG q) rfl
  show Ideal.logistic (extractStridedSlice S4096x128 ![0, 0] P slices_S4096x512_o0_0_S4096x128 (ix2 p q)) * (cl (ix2 p q) : EReal)
      + Ideal.logistic (extractStridedSlice S4096x128 ![0, 128] P slices_S4096x512_o0_128_S4096x128 (ix2 p q))
        * Ideal.tanh (extractStridedSlice S4096x128 ![0, 384] P slices_S4096x512_o0_384_S4096x128 (ix2 p q)) = _
  rw [eF, eI, eG]

/-- The new hidden block at (p, q): the output gate times tanh of the new cell. -/
theorem hidden_block (p : Fin 4096) (q : Fin 128) :
    k0_pay3 (F := Ideal) x h wi wh b cl (ix2 p q)
      = Ideal.logistic (k0_pay1 (F := Ideal) x h wi wh b (ix2 p (colO q))) * Ideal.tanh (k0_pay2 (F := Ideal) x h wi wh b cl (ix2 p q)) := by
  unfold k0_pay3
  generalize k0_pay1 (F := Ideal) x h wi wh b = P
  generalize k0_pay2 (F := Ideal) x h wi wh b cl = C
  have eO : extractStridedSlice S4096x128 ![0, 256] P slices_S4096x512_o0_256_S4096x128 (ix2 p q) = P (ix2 p (colO q)) :=
    slice2_axis1_apply 256 P _ p q (colO q) rfl
  show Ideal.logistic (extractStridedSlice S4096x128 ![0, 256] P slices_S4096x512_o0_256_S4096x128 (ix2 p q)) * Ideal.tanh (C (ix2 p q)) = _
  rw [eO]

/-! ## The block as rows of the arrays -/

variable (X H C : Batch.Idx → EReal) (W : Stack.Idx → EReal) (bv : Bias.Idx → EReal) (r : Fin 65536) (p : Fin 4096)

/-- When row p of the input and hidden blocks is row r of the batch arrays, and the weight halves and the bias row are the
    stacked weights' two column ranges transposed and the stacked biases, the block's pre-activations at row p are the
    cell's at row r. -/
theorem pre_rows (hx : ∀ k : Fin 128, (x (ix2 p k) : EReal) = X (ix2 r k)) (hh : ∀ k : Fin 128, (h (ix2 p k) : EReal) = H (ix2 r k))
    (hwi : ∀ (k : Fin 128) (j : Fin 512), (wi (ix2 k j) : EReal) = W (ix2 j (lo k)))
    (hwh : ∀ (k : Fin 128) (j : Fin 512), (wh (ix2 k j) : EReal) = W (ix2 j (hi k)))
    (hb : ∀ j : Fin 512, (b (ix2 (0 : Fin 1) j) : EReal) = bv (ix1 j)) (j : Fin 512) :
    k0_pay1 (F := Ideal) x h wi wh b (ix2 p j) = pre X H W bv r j := by
  rw [pre_block]
  unfold pre
  simp only [hx, hh, hwi, hwh, hb]

/-- The new cell block at (p, q) is the cell's new cell state at (r, q). -/
theorem cell_rows (hx : ∀ k : Fin 128, (x (ix2 p k) : EReal) = X (ix2 r k)) (hh : ∀ k : Fin 128, (h (ix2 p k) : EReal) = H (ix2 r k))
    (hc : ∀ q : Fin 128, (cl (ix2 p q) : EReal) = C (ix2 r q))
    (hwi : ∀ (k : Fin 128) (j : Fin 512), (wi (ix2 k j) : EReal) = W (ix2 j (lo k)))
    (hwh : ∀ (k : Fin 128) (j : Fin 512), (wh (ix2 k j) : EReal) = W (ix2 j (hi k)))
    (hb : ∀ j : Fin 512, (b (ix2 (0 : Fin 1) j) : EReal) = bv (ix1 j)) (q : Fin 128) :
    k0_pay2 (F := Ideal) x h wi wh b cl (ix2 p q) = cellAt X H C W bv r q := by
  rw [cell_block, pre_rows x h wi wh b X H W bv r p hx hh hwi hwh hb, pre_rows x h wi wh b X H W bv r p hx hh hwi hwh hb,
    pre_rows x h wi wh b X H W bv r p hx hh hwi hwh hb, hc]
  rfl

/-- The new hidden block at (p, q) is the cell's new hidden state at (r, q). -/
theorem hidden_rows (hx : ∀ k : Fin 128, (x (ix2 p k) : EReal) = X (ix2 r k)) (hh : ∀ k : Fin 128, (h (ix2 p k) : EReal) = H (ix2 r k))
    (hc : ∀ q : Fin 128, (cl (ix2 p q) : EReal) = C (ix2 r q))
    (hwi : ∀ (k : Fin 128) (j : Fin 512), (wi (ix2 k j) : EReal) = W (ix2 j (lo k)))
    (hwh : ∀ (k : Fin 128) (j : Fin 512), (wh (ix2 k j) : EReal) = W (ix2 j (hi k)))
    (hb : ∀ j : Fin 512, (b (ix2 (0 : Fin 1) j) : EReal) = bv (ix1 j)) (q : Fin 128) :
    k0_pay3 (F := Ideal) x h wi wh b cl (ix2 p q) = hiddenAt X H C W bv r q := by
  rw [hidden_block, pre_rows x h wi wh b X H W bv r p hx hh hwi hwh hb, cell_rows x h cl wi wh b X H C W bv r p hx hh hc hwi hwh hb]
  rfl

end Cert.KernelIdeal.Blk

end
-- ==== Proof.KernelValue.lean ====
/-
  From blocks to arrays: what the kernel's two result arrays hold after the run, at the extended reals.

  The region finds the weight halves as the stacked weights' two column ranges transposed, and the bias row as the
  stacked biases laid out as one row.  At grid point t the input, hidden and cell windows hold rows 4096 t .. 4096 t + 4095
  of their arrays, the three parameter windows their whole arrays, and each output window is written back to the same
  rows of its array.  So what point t writes back is block t of the cell's result array; the 16 blocks tile the 65536
  rows; the result arrays end as the cell's two functions of the argument arrays.
-/
import proofs.«171710_j7988639171179_1_alg».proof.Proof.KernelIdealLaunch
import proofs.«171710_j7988639171179_1_alg».proof.Proof.KernelBlock
import Idealize.ShloMosaic.Lib.Pipeline.Value
import Idealize.ShloMosaic.Lib.ValueLayout
import Idealize.ShloMosaic.Lib.StableHlo.Run

noncomputable section

namespace Cert.KernelIdeal.Val

open Cert.KernelIdeal Cert.KernelIdeal.Gen Cert.KernelIdeal.Fr Cert.KernelIdeal.Blk Cert.Lstm
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The stacked weights and biases, and what the region finds of them -/

/-- The four gate weight matrices as launched, stacked on their rows. -/
def stackW (c : Dev nD) : S512x256.Idx → EReal :=
  concatenate S512x256 0 [⟨S128x256, (m ((c : Thread nD τ).loc main_arg3))⟩, ⟨S128x256, (m ((c : Thread nD τ).loc main_arg5))⟩, ⟨S128x256, (m ((c : Thread nD τ).loc main_arg7))⟩, ⟨S128x256, (m ((c : Thread nD τ).loc main_arg9))⟩]
    concatenates_S128x256_S128x256_S128x256_S128x256_S512x256_d0

/-- The four gate biases as launched, stacked. -/
def stackB (c : Dev nD) : S512.Idx → EReal :=
  concatenate S512 0 [⟨S128, (m ((c : Thread nD τ).loc main_arg4))⟩, ⟨S128, (m ((c : Thread nD τ).loc main_arg6))⟩, ⟨S128, (m ((c : Thread nD τ).loc main_arg8))⟩, ⟨S128, (m ((c : Thread nD τ).loc main_arg10))⟩]
    concatenates_S128_S128_S128_S128_S512_d0

/-- The input weight half as the region finds it: columns 0..127 of the stacked weights, transposed. -/
theorem entry_wi (c : Dev nD) : (entry m c main_v3 : S128x512.Idx → EReal)
    = transpose S128x512 [1, 0] (extractStridedSlice S512x128 ![0, 0] (stackW m c) slices_S512x256_S512x128_0_0) transposes_S512x128_S128x512_1_0 := by
  dsimp only [entry, hostOps0]
  after_results
  rfl

/-- The hidden weight half: columns 128..255 of the stacked weights, transposed. -/
theorem entry_wh (c : Dev nD) : (entry m c main_v5 : S128x512.Idx → EReal)
    = transpose S128x512 [1, 0] (extractStridedSlice S512x128 ![0, 128] (stackW m c) slices_S512x256_S512x128_0_128) transposes_S512x128_S128x512_1_0 := by
  dsimp only [entry, hostOps0]
  after_results
  rfl

/-- The bias row: the stacked biases as a 1 x 512 array. -/
theorem entry_b (c : Dev nD) : (entry m c main_v6 : S1x512.Idx → EReal) = shapeCast S1x512 (stackB m c) shapeCasts_S512_S1x512 := by
  dsimp only [entry, hostOps0]
  after_results
  rfl

theorem wi_at (c : Dev nD) (k : Fin 128) (j : Fin 512) : (entry m c main_v3 : S128x512.Idx → EReal) (ix2 k j) = stackW m c (ix2 j (lo k)) := by
  rw [entry_wi, transpose_ix2_apply, slice2_axis1_apply 0 _ _ j k (lo k) (Nat.zero_add _).symm]

theorem wh_at (c : Dev nD) (k : Fin 128) (j : Fin 512) : (entry m c main_v5 : S128x512.Idx → EReal) (ix2 k j) = stackW m c (ix2 j (hi k)) := by
  rw [entry_wh, transpose_ix2_apply, slice2_axis1_apply 128 _ _ j k (hi k) rfl]

theorem b_at (c : Dev nD) (j : Fin 512) : (entry m c main_v6 : S1x512.Idx → EReal) (ix2 (0 : Fin 1) j) = stackB m c (ix1 j) := by
  rw [entry_b, shapeCast_a_1a_apply]

/-! ## The windows' blocks as parts of the arrays -/

/-- The block indices, decided over the 16 grid points: the three batch inputs and the two outputs move down the rows with
    the point, the three parameter windows stay at their whole arrays. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Window 0's block at point t is rows 4096 t .. 4096 t + 4095 of the input array. -/
theorem block_rows0 (c : Dev nD) (t : Fin cfg0.N) (p : Fin 4096) (k : Fin 128) (r : Fin 65536) (hr : r.val = 4096 * t.val + p.val) :
    (block m c 0 t : Vec Ideal S4096x128 .f32) (ix2 p k) = ((m ((c : Thread nD τ).loc main_arg0)) : S65536x128.Idx → EReal) (ix2 r k) := by
  have e := (idx_facts t).1
  unfold block
  rw [View.read_apply]
  show entry m c main_arg0 _ = _
  rw [entry_arg0]
  refine congrArg ((m ((c : Thread nD τ).loc main_arg0)) : S65536x128.Idx → EReal) (funext fun a => Fin.ext ?_)
  match a with
  | ⟨0, _⟩ => show win0_0.index t (0 : Fin 2) * 4096 + 1 * p.val = r.val; rw [e.1, hr]; omega
  | ⟨1, _⟩ => show win0_0.index t (1 : Fin 2) * 128 + 1 * k.val = k.val; rw [e.2]; omega

/-- Window 1's block at point t is rows 4096 t .. 4096 t + 4095 of the hidden array. -/
theorem block_rows1 (c : Dev nD) (t : Fin cfg0.N) (p : Fin 4096) (k : Fin 128) (r : Fin 65536) (hr : r.val = 4096 * t.val + p.val) :
    (block m c 1 t : Vec Ideal S4096x128 .f32) (ix2 p k) = ((m ((c : Thread nD τ).loc main_arg1)) : S65536x128.Idx → EReal) (ix2 r k) := by
  have e := (idx_facts t).2.1
  unfold block
  rw [View.read_apply]
  show entry m c main_arg1 _ = _
  rw [entry_arg1]
  refine congrArg ((m ((c : Thread nD τ).loc main_arg1)) : S65536x128.Idx → EReal) (funext fun a => Fin.ext ?_)
  match a with
  | ⟨0, _⟩ => show win0_1.index t (0 : Fin 2) * 4096 + 1 * p.val = r.val; rw [e.1, hr]; omega
  | ⟨1, _⟩ => show win0_1.index t (1 : Fin 2) * 128 + 1 * k.val = k.val; rw [e.2]; omega

/-- Window 2's block at point t is rows 4096 t .. 4096 t + 4095 of the cell array. -/
theorem block_rows2 (c : Dev nD) (t : Fin cfg0.N) (p : Fin 4096) (k : Fin 128) (r : Fin 65536) (hr : r.val = 4096 * t.val + p.val) :
    (block m c 2 t : Vec Ideal S4096x128 .f32) (ix2 p k) = ((m ((c : Thread nD τ).loc main_arg2)) : S65536x128.Idx → EReal) (ix2 r k) := by
  have e := (idx_facts t).2.2.1
  unfold block
  rw [View.read_apply]
  show entry m c main_arg2 _ = _
  rw [entry_arg2]
  refine congrArg ((m ((c : Thread nD τ).loc main_arg2)) : S65536x128.Idx → EReal) (funext fun a => Fin.ext ?_)
  match a with
  | ⟨0, _⟩ => show win0_2.index t (0 : Fin 2) * 4096 + 1 * p.val = r.val; rw [e.1, hr]; omega
  | ⟨1, _⟩ => show win0_2.index t (1 : Fin 2) * 128 + 1 * k.val = k.val; rw [e.2]; omega

/-- Window 3's block is the whole input weight half at every point. -/
theorem block_wi (c : Dev nD) (t : Fin cfg0.N) (k : Fin 128) (j : Fin 512) :
    (block m c 3 t : Vec Ideal S128x512 .f32) (ix2 k j) = stackW m c (ix2 j (lo k)) := by
  have e := (idx_facts t).2.2.2.2.2.1
  refine Eq.trans ?_ (wi_at m c k j)
  unfold block
  rw [View.read_apply]
  show entry m c main_v3 _ = entry m c main_v3 _
  refine congrArg (entry m c main_v3 : S128x512.Idx → EReal) (funext fun a => Fin.ext ?_)
  match a with
  | ⟨0, _⟩ => show win0_3.index t (0 : Fin 2) * 128 + 1 * k.val = k.val; rw [e.1]; omega
  | ⟨1, _⟩ => show win0_3.index t (1 : Fin 2) * 512 + 1 * j.val = j.val; rw [e.2]; omega

/-- Window 4's block is the whole hidden weight half at every point. -/
theorem block_wh (c : Dev nD) (t : Fin cfg0.N) (k : Fin 128) (j : Fin 512) :
    (block m c 4 t : Vec Ideal S128x512 .f32) (ix2 k j) = stackW m c (ix2 j (hi k)) := by
  have e := (idx_facts t).2.2.2.2.2.2.1
  refine Eq.trans ?_ (wh_at m c k j)
  unfold block
  rw [View.read_apply]
  show entry m c main_v5 _ = entry m c main_v5 _
  refine congrArg (entry m c main_v5 : S128x512.Idx → EReal) (funext fun a => Fin.ext ?_)
  match a with
  | ⟨0, _⟩ => show win0_4.index t (0 : Fin 2) * 128 + 1 * k.val = k.val; rw [e.1]; omega
  | ⟨1, _⟩ => show win0_4.index t (1 : Fin 2) * 512 + 1 * j.val = j.val; rw [e.2]; omega

/-- Window 5's block is the bias row at every point. -/
theorem block_b (c : Dev nD) (t : Fin cfg0.N) (j : Fin 512) :
    (block m c 5 t : Vec Ideal S1x512 .f32) (ix2 (0 : Fin 1) j) = stackB m c (ix1 j) := by
  have e := (idx_facts t).2.2.2.2.2.2.2
  refine Eq.trans ?_ (b_at m c j)
  unfold block
  rw [View.read_apply]
  show entry m c main_v6 _ = entry m c main_v6 _
  refine congrArg (entry m c main_v6 : S1x512.Idx → EReal) (funext fun a => Fin.ext ?_)
  match a with
  | ⟨0, _⟩ => show win0_5.index t (0 : Fin 2) * 1 + 1 * 0 = 0; rw [e.1]
  | ⟨1, _⟩ => show win0_5.index t (1 : Fin 2) * 512 + 1 * j.val = j.val; rw [e.2]; omega

/-! ## The result arrays -/

theorem hz : (![0, 0] : Fin 2 → Nat) = fun _ => 0 := funext fun a => by fin_cases a <;> rfl

/-- The cell's two result arrays, of the argument arrays as launched. -/
abbrev hiddenArr (c : Dev nD) : Buf (Elt Ideal) ((c : Thread nD τ).loc main_v7_0) :=
  Lstm.newHidden (m ((c : Thread nD τ).loc main_arg0)) (m ((c : Thread nD τ).loc main_arg1)) (m ((c : Thread nD τ).loc main_arg2)) (stackW m c) (stackB m c)
abbrev cellArr (c : Dev nD) : Buf (Elt Ideal) ((c : Thread nD τ).loc main_v7_1) :=
  Lstm.newCell (m ((c : Thread nD τ).loc main_arg0)) (m ((c : Thread nD τ).loc main_arg1)) (m ((c : Thread nD τ).loc main_arg2)) (stackW m c) (stackB m c)

/-- What point t writes back to the hidden array is block t of the cell's hidden array. -/
theorem flushed_hidden (c : Dev nD) (t : Fin cfg0.N) :
    (pdat m 0 c).flushed 6 t = ((cfg0.win 6).blk t).view.read (Elt Ideal) (hiddenArr m c) := by
  have e := (idx_facts t).2.2.2.1
  show (cfg0.win 6).cut (grid0.coords t) ((pdat m 0 c).after 6 t) = _
  rw [pdat_after6]
  unfold Fr.newHidden
  rw [View.canon_unit_zero hz]
  simp only [View.ld_unit_zero (S := S4096x128) hz, View.ld_unit_zero (S := S128x512) hz, View.ld_unit_zero (S := S1x512) hz]
  funext y
  obtain ⟨p, q, rfl⟩ : ∃ (p : Fin 4096) (q : Fin 128), (y : S4096x128.Idx) = ix2 p q := ⟨(y : S4096x128.Idx) 0, (y : S4096x128.Idx) 1, eq_ix2 (y : S4096x128.Idx)⟩
  have hN : cfg0.N = 16 := N_0
  have hr : 4096 * t.val + p.val < 65536 := by have := t.isLt; have := p.isLt; omega
  have hemb : ((cfg0.win 6).blk t).view.emb (ix2 p q) = ix2 (⟨4096 * t.val + p.val, hr⟩ : Fin 65536) q := funext fun a => Fin.ext (by
    match a with
    | ⟨0, _⟩ => show win0_6.index t (0 : Fin 2) * 4096 + 1 * p.val = 4096 * t.val + p.val; rw [e.1]; omega
    | ⟨1, _⟩ => show win0_6.index t (1 : Fin 2) * 128 + 1 * q.val = q.val; rw [e.2]; omega)
  show k0_pay3 (F := Ideal) (block m c 0 t) (block m c 1 t) (block m c 3 t) (block m c 4 t) (block m c 5 t) (block m c 2 t) (ix2 p q)
      = hiddenArr m c (((cfg0.win 6).blk t).view.emb (ix2 p q))
  rw [hemb]
  exact hidden_rows (block m c 0 t) (block m c 1 t) (block m c 2 t) (block m c 3 t) (block m c 4 t) (block m c 5 t)
    (m ((c : Thread nD τ).loc main_arg0)) (m ((c : Thread nD τ).loc main_arg1)) (m ((c : Thread nD τ).loc main_arg2)) (stackW m c) (stackB m c) ⟨4096 * t.val + p.val, hr⟩ p
    (fun k => block_rows0 m c t p k _ rfl) (fun k => block_rows1 m c t p k _ rfl) (fun q => block_rows2 m c t p q _ rfl)
    (fun k j => block_wi m c t k j) (fun k j => block_wh m c t k j) (fun j => block_b m c t j) q

/-- What point t writes back to the cell array is block t of the cell's cell array. -/
theorem flushed_cell (c : Dev nD) (t : Fin cfg0.N) :
    (pdat m 0 c).flushed 7 t = ((cfg0.win 7).blk t).view.read (Elt Ideal) (cellArr m c) := by
  have e := (idx_facts t).2.2.2.2.1
  show (cfg0.win 7).cut (grid0.coords t) ((pdat m 0 c).after 7 t) = _
  rw [pdat_after7]
  unfold Fr.newCell
  rw [View.canon_unit_zero hz]
  simp only [View.ld_unit_zero (S := S4096x128) hz, View.ld_unit_zero (S := S128x512) hz, View.ld_unit_zero (S := S1x512) hz]
  funext y
  obtain ⟨p, q, rfl⟩ : ∃ (p : Fin 4096) (q : Fin 128), (y : S4096x128.Idx) = ix2 p q := ⟨(y : S4096x128.Idx) 0, (y : S4096x128.Idx) 1, eq_ix2 (y : S4096x128.Idx)⟩
  have hN : cfg0.N = 16 := N_0
  have hr : 4096 * t.val + p.val < 65536 := by have := t.isLt; have := p.isLt; omega
  have hemb : ((cfg0.win 7).blk t).view.emb (ix2 p q) = ix2 (⟨4096 * t.val + p.val, hr⟩ : Fin 65536) q := funext fun a => Fin.ext (by
    match a with
    | ⟨0, _⟩ => show win0_7.index t (0 : Fin 2) * 4096 + 1 * p.val = 4096 * t.val + p.val; rw [e.1]; omega
    | ⟨1, _⟩ => show win0_7.index t (1 : Fin 2) * 128 + 1 * q.val = q.val; rw [e.2]; omega)
  show k0_pay2 (F := Ideal) (block m c 0 t) (block m c 1 t) (block m c 3 t) (block m c 4 t) (block m c 5 t) (block m c 2 t) (ix2 p q)
      = cellArr m c (((cfg0.win 7).blk t).view.emb (ix2 p q))
  rw [hemb]
  exact cell_rows (block m c 0 t) (block m c 1 t) (block m c 2 t) (block m c 3 t) (block m c 4 t) (block m c 5 t)
    (m ((c : Thread nD τ).loc main_arg0)) (m ((c : Thread nD τ).loc main_arg1)) (m ((c : Thread nD τ).loc main_arg2)) (stackW m c) (stackB m c) ⟨4096 * t.val + p.val, hr⟩ p
    (fun k => block_rows0 m c t p k _ rfl) (fun k => block_rows1 m c t p k _ rfl) (fun q => block_rows2 m c t p q _ rfl)
    (fun k j => block_wi m c t k j) (fun k j => block_wh m c t k j) (fun j => block_b m c t j) q

/-- The 16 blocks tile the hidden array, so after the run it is the cell's hidden array. -/
theorem final_hidden (c : Dev nD) : (pdat m 0 c).arrAt 6 cfg0.N = hiddenArr m c :=
  (pdat m 0 c).arrAt_eq_of_cover 6 (hiddenArr m c) (fun t _ => flushed_hidden m c t) fun i => by
    have hN : cfg0.N = 16 := N_0
    have hi0 : (i 0).val < 65536 := (i 0).isLt
    have hi1 : (i 1).val < 128 := (i 1).isLt
    let t : Fin cfg0.N := ⟨(i 0).val / 4096, by rw [hN]; omega⟩
    have e := (idx_facts t).2.2.2.1
    refine ⟨t, flush0_6 t, ?_⟩
    show i ∈ ((View.whole main_v7_0).slice (win0_6.rect t)).set
    rw [View.set_slice_whole, Rect.mem_set_unit]
    intro a
    match a with
    | ⟨0, _⟩ =>
      show win0_6.index t (0 : Fin 2) * 4096 ≤ (i 0).val ∧ (i 0).val < win0_6.index t (0 : Fin 2) * 4096 + 4096
      rw [e.1]; show (i 0).val / 4096 * 4096 ≤ (i 0).val ∧ (i 0).val < (i 0).val / 4096 * 4096 + 4096; omega
    | ⟨1, _⟩ =>
      show win0_6.index t (1 : Fin 2) * 128 ≤ (i 1).val ∧ (i 1).val < win0_6.index t (1 : Fin 2) * 128 + 128
      rw [e.2]; omega

/-- The 16 blocks tile the cell array, so after the run it is the cell's cell array. -/
theorem final_cell (c : Dev nD) : (pdat m 0 c).arrAt 7 cfg0.N = cellArr m c :=
  (pdat m 0 c).arrAt_eq_of_cover 7 (cellArr m c) (fun t _ => flushed_cell m c t) fun i => by
    have hN : cfg0.N = 16 := N_0
    have hi0 : (i 0).val < 65536 := (i 0).isLt
    have hi1 : (i 1).val < 128 := (i 1).isLt
    let t : Fin cfg0.N := ⟨(i 0).val / 4096, by rw [hN]; omega⟩
    have e := (idx_facts t).2.2.2.2.1
    refine ⟨t, flush0_7 t, ?_⟩
    show i ∈ ((View.whole main_v7_1).slice (win0_7.rect t)).set
    rw [View.set_slice_whole, Rect.mem_set_unit]
    intro a
    match a with
    | ⟨0, _⟩ =>
      show win0_7.index t (0 : Fin 2) * 4096 ≤ (i 0).val ∧ (i 0).val < win0_7.index t (0 : Fin 2) * 4096 + 4096
      rw [e.1]; show (i 0).val / 4096 * 4096 ≤ (i 0).val ∧ (i 0).val < (i 0).val / 4096 * 4096 + 4096; omega
    | ⟨1, _⟩ =>
      show win0_7.index t (1 : Fin 2) * 128 ≤ (i 1).val ∧ (i 1).val < win0_7.index t (1 : Fin 2) * 128 + 128
      rw [e.2]; omega

/-! ## The run, read -/

/-- Every weakly fair execution of @main terminates with the two result arrays at the cell's functions of the argument
    arrays, the eleven argument arrays as launched. -/
theorem run : θ_run defs (onTc (τ := τ) (main (F := Ideal))) ⟨m, fun _ => 0, ρ⟩ fun r => ∀ c : Dev nD,
      r.2.mem ((c.tc : Thread nD τ).loc main_v7_0) = hiddenArr m c
      ∧ r.2.mem ((c.tc : Thread nD τ).loc main_v7_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1 6).trans (final_hidden m c), ((h c).1 7).trans (final_cell m c),
      ((h c).1 0).trans (((pdat m 0 c).arrAt_in 0 rfl _).trans ((pdat_A m c 0).trans (entry_arg0 m c))),
      ((h c).1 1).trans (((pdat m 0 c).arrAt_in 1 rfl _).trans ((pdat_A m c 1).trans (entry_arg1 m c))),
      ((h c).1 2).trans (((pdat m 0 c).arrAt_in 2 rfl _).trans ((pdat_A m c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c)⟩)
    (Fr.run m ρ)

end Cert.KernelIdeal.Val

end
-- ==== Proof.RefValue.lean ====
/-
  The reference's two results, at the extended reals, are the cell's functions of its arrays.

  The reference joins input and hidden side by side into one 65536 x 256 array, multiplies it with the transposed
  stacked weights, adds the stacked biases broadcast down the rows, cuts the four gate column ranges out, and spells
  the logistic function as one over one plus e to the minus.  Entry (r, j) of its product is the sum over 256 inner
  positions of joined(r,k) * W(j,k); the first 128 positions read the input's row, the last 128 the hidden's row, so the
  sum is the cell's two half products.  The rest agrees with the cell entry by entry.
-/
import proofs.«171710_j7988639171179_1_alg».proof.Proof.Gen.ReferenceIdeal.Read
import proofs.«171710_j7988639171179_1_alg».proof.Proof.LstmSpec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Cert.Lstm
open Idealize.ShloMosaic Idealize.ShloMosaic.ValueIdx

variable (x0 x1 x2 : (⟨S65536x128, .f32⟩ : BufTy).Contents (Elt Ideal)) (x3 x5 x7 x9 : (⟨S128x256, .f32⟩ : BufTy).Contents (Elt Ideal)) (x4 x6 x8 x10 : (⟨S128, .f32⟩ : BufTy).Contents (Elt Ideal))

/-- The joined array's first 128 columns are the input's, -/
theorem joined_lo (r : Fin 65536) (k : Fin 128) : val_main_v0 (F := Ideal) x0 x1 (ix2 r (lo k)) = x0 (ix2 r k) := by
  unfold val_main_v0
  exact concatenate_pair_apply_left _ x0 x1 _ (ix2 r (lo k)) rfl (ix2 r k) (fun b => match b with | ⟨0, _⟩ => rfl | ⟨1, _⟩ => rfl)

/-- and its last 128 columns the hidden's. -/
theorem joined_hi (r : Fin 65536) (k : Fin 128) : val_main_v0 (F := Ideal) x0 x1 (ix2 r (hi k)) = x1 (ix2 r k) := by
  unfold val_main_v0
  exact concatenate_pair_apply_right _ x0 x1 _ (ix2 r (hi k)) rfl rfl (ix2 r k)
    (fun b hb => match b, hb with | ⟨0, _⟩, _ => rfl | ⟨1, _⟩, hb => absurd (Fin.ext rfl) hb)
    (by show k.val + 128 = 128 + k.val; omega)

/-- The operand positions of the product at (r, j) and inner position k: the joined array at (r, k), the stacked weights
    at (j, k); the bias at j. -/
theorem lidx_eq (r : Fin 65536) (j : Fin 512) (k : Fin 256) : lidx_main_v4 (ix2 r j) k = ix2 r k :=
  funext fun a => Fin.ext (by match a with | ⟨0, _⟩ => rfl | ⟨1, _⟩ => rfl)
theorem ridx_eq (r : Fin 65536) (j : Fin 512) (k : Fin 256) : idx_main_v3 (ridx_main_v4 (ix2 r j) k) = ix2 j k :=
  funext fun a => Fin.ext (by match a with | ⟨0, _⟩ => rfl | ⟨1, _⟩ => rfl)
theorem bidx_eq (r : Fin 65536) (j : Fin 512) : idx_main_v5 (idx_main_v6 (ix2 r j)) = ix1 j :=
  funext fun a => Fin.ext (by match a with | ⟨0, _⟩ => rfl)

/-- The reference's pre-activations are the cell's. -/
theorem gate_eq (r : Fin 65536) (j : Fin 512) :
    val_main_v7 (F := Ideal) x0 x1 x3 x4 x5 x6 x7 x8 x9 x10 (ix2 r j) = pre x0 x1 (val_main_v1 (F := Ideal) x3 x5 x7 x9) (val_main_v2 (F := Ideal) x4 x6 x8 x10) r j := by
  rw [val_main_v7_apply, val_main_v4_apply, val_main_v6_apply, val_main_v5_apply, bidx_eq]
  simp only [val_main_v3_apply, lidx_eq, ridx_eq]
  rw [sum_halves]
  simp only [joined_lo, joined_hi]
  rfl

/-- The four gate column ranges. -/
theorem sliceF (r : Fin 65536) (q : Fin 128) : idx_main_v8 (ix2 r q) = ix2 r (colF q) :=
  funext fun a => Fin.ext (by match a with | ⟨0, _⟩ => rfl | ⟨1, _⟩ => rfl)
theorem sliceI (r : Fin 65536) (q : Fin 128) : idx_main_v9 (ix2 r q) = ix2 r (colI q) :=
  funext fun a => Fin.ext (by match a with | ⟨0, _⟩ => rfl | ⟨1, _⟩ => rfl)
theorem sliceO (r : Fin 65536) (q : Fin 128) : idx_main_v10 (ix2 r q) = ix2 r (colO q) :=
  funext fun a => Fin.ext (by match a with | ⟨0, _⟩ => rfl | ⟨1, _⟩ => rfl)
theorem sliceG (r : Fin 65536) (q : Fin 128) : idx_main_v11 (ix2 r q) = ix2 r (colG q) :=
  funext fun a => Fin.ext (by match a with | ⟨0, _⟩ => rfl | ⟨1, _⟩ => rfl)

/-- The six broadcast constants are the f32 word of 1.0 at every entry. -/
theorem one14 (i : S65536x128.Idx) : val_main_v14 (F := Ideal) i = Ideal.ofBits .f32 0x3F800000#32 := by
  rw [val_main_v14_apply]; rfl
theorem one16 (i : S65536x128.Idx) : val_main_v16 (F := Ideal) i = Ideal.ofBits .f32 0x3F800000#32 := by
  rw [val_main_v16_apply]; rfl
theorem one20 (i : S65536x128.Idx) : val_main_v20 (F := Ideal) i = Ideal.ofBits .f32 0x3F800000#32 := by
  rw [val_main_v20_apply]; rfl
theorem one22 (i : S65536x128.Idx) : val_main_v22 (F := Ideal) i = Ideal.ofBits .f32 0x3F800000#32 := by
  rw [val_main_v22_apply]; rfl
theorem one26 (i : S65536x128.Idx) : val_main_v26 (F := Ideal) i = Ideal.ofBits .f32 0x3F800000#32 := by
  rw [val_main_v26_apply]; rfl
theorem one28 (i : S65536x128.Idx) : val_main_v28 (F := Ideal) i = Ideal.ofBits .f32 0x3F800000#32 := by
  rw [val_main_v28_apply]; rfl

/-- The reference's new cell state is the cell's. -/
theorem cell_eq : val_main_v33 (F := Ideal) x0 x1 x2 x3 x4 x5 x6 x7 x8 x9 x10 = newCell x0 x1 x2 (val_main_v1 (F := Ideal) x3 x5 x7 x9) (val_main_v2 (F := Ideal) x4 x6 x8 x10) := by
  funext i
  obtain ⟨r, q, rfl⟩ : ∃ (r : Fin 65536) (q : Fin 128), i = ix2 r q := ⟨i 0, i 1, eq_ix2 i⟩
  rw [newCell_ix2]
  simp only [val_main_v33_apply, val_main_v31_apply, val_main_v32_apply, val_main_v17_apply, val_main_v23_apply, val_main_v30_apply,
    val_main_v15_apply, val_main_v21_apply, val_main_v13_apply, val_main_v19_apply, val_main_v12_apply, val_main_v18_apply,
    val_main_v8_apply, val_main_v9_apply, val_main_v11_apply, one14, one16, one20, one22, sliceF, sliceI, sliceG, gate_eq]
  unfold cellAt
  show Ideal.div (Ideal.ofBits .f32 0x3F800000#32) (Ideal.ofBits .f32 0x3F800000#32 + Ideal.exp (-(pre x0 x1 (val_main_v1 (F := Ideal) x3 x5 x7 x9) (val_main_v2 (F := Ideal) x4 x6 x8 x10) r (colF q)))) * x2 (ix2 r q)
      + Ideal.div (Ideal.ofBits .f32 0x3F800000#32) (Ideal.ofBits .f32 0x3F800000#32 + Ideal.exp (-(pre x0 x1 (val_main_v1 (F := Ideal) x3 x5 x7 x9) (val_main_v2 (F := Ideal) x4 x6 x8 x10) r (colI q))))
        * Ideal.tanh (pre x0 x1 (val_main_v1 (F := Ideal) x3 x5 x7 x9) (val_main_v2 (F := Ideal) x4 x6 x8 x10) r (colG q)) = _
  rw [logistic_spelt, logistic_spelt]

/-- The reference's new hidden state is the cell's. -/
theorem hidden_eq : val_main_v35 (F := Ideal) x0 x1 x2 x3 x4 x5 x6 x7 x8 x9 x10 = newHidden x0 x1 x2 (val_main_v1 (F := Ideal) x3 x5 x7 x9) (val_main_v2 (F := Ideal) x4 x6 x8 x10) := by
  funext i
  obtain ⟨r, q, rfl⟩ : ∃ (r : Fin 65536) (q : Fin 128), i = ix2 r q := ⟨i 0, i 1, eq_ix2 i⟩
  rw [newHidden_ix2, val_main_v35_apply, val_main_v34_apply, cell_eq, newCell_ix2]
  simp only [val_main_v29_apply, val_main_v27_apply, val_main_v25_apply, val_main_v24_apply, val_main_v10_apply, one26, one28, sliceO, gate_eq]
  unfold hiddenAt
  show Ideal.div (Ideal.ofBits .f32 0x3F800000#32) (Ideal.ofBits .f32 0x3F800000#32 + Ideal.exp (-(pre x0 x1 (val_main_v1 (F := Ideal) x3 x5 x7 x9) (val_main_v2 (F := Ideal) x4 x6 x8 x10) r (colO q))))
      * Ideal.tanh (cellAt x0 x1 x2 (val_main_v1 (F := Ideal) x3 x5 x7 x9) (val_main_v2 (F := Ideal) x4 x6 x8 x10) r q) = _
  rw [logistic_spelt]

end Cert.ReferenceIdeal.RefValue

end
-- ==== Proof.lean ====
/-
  The certificate of the fused LSTM cell against its jnp reference.

  The kernel stacks the four gate weight matrices and biases on the host, cuts the stacked weights into their input and
  hidden halves, and in one pallas_call over 16 blocks of 4096 batch rows computes the gate pre-activations as the product
  of the input block with the input half plus the product of the hidden block with the hidden half plus the bias, then the
  new cell and hidden states entry by entry.  The reference joins input and hidden into one array and multiplies it with
  the whole stacked weights.  At the extended reals both are the cell's functions (Proof/LstmSpec.lean) of the same
  arrays: the product over the 256 joined positions is the sum of the two products over 128 positions each, rounding to
  bf16 is the identity, and the kernel's logistic operation is one over one plus e to the minus, as the reference spells
  it.  No entry has to be finite for this, so the precondition is not opened.

  The three frames: each kernel program's frame is its run through the pipelined region (Proof/KernelLaunch.lean at the
  word-level instance, Proof/KernelIdealLaunch.lean at the extended reals); the reference's is its run with the results
  dropped.  The idealization rewrote nothing, so what it must preserve is trivial.
-/
import proofs.«171710_j7988639171179_1_alg».proof.Defs
import proofs.«171710_j7988639171179_1_alg».proof.Proof.Gen.Kernel
import proofs.«171710_j7988639171179_1_alg».proof.Proof.Gen.KernelIdeal
import proofs.«171710_j7988639171179_1_alg».proof.Proof.Gen.ReferenceIdeal
import proofs.«171710_j7988639171179_1_alg».proof.Proof.Gen.Pre_finite_inputs
import proofs.«171710_j7988639171179_1_alg».proof.Proof.Gen.ReferenceIdeal.Run
import proofs.«171710_j7988639171179_1_alg».proof.Proof.Gen.ReferenceIdeal.Read
import proofs.«171710_j7988639171179_1_alg».proof.Proof.KernelLaunch
import proofs.«171710_j7988639171179_1_alg».proof.Proof.KernelIdealLaunch
import proofs.«171710_j7988639171179_1_alg».proof.Proof.KernelValue
import proofs.«171710_j7988639171179_1_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Fr.frame m ρ

/-- So does the idealized kernel program. -/
theorem frame_kernelIdeal : Cert.frame_KernelIdeal := fun m ρ _ => Cert.KernelIdeal.Fr.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, both idealized programs end with the new hidden state and the new cell
    state at the cell's functions of the same arrays. -/
theorem algebraic : Cert.algebraic_KernelIdeal_ReferenceIdeal := by
  intro m ρ m' ρ' _ hagree
  refine ⟨fun c => Cert.KernelIdeal.Val.hiddenArr m c, fun c => Cert.KernelIdeal.Val.cellArr m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v35_eq, Cert.ReferenceIdeal.RefValue.hidden_eq, h0, h1, h2, h3, h4, h5, h6, h7, h8, h9, h10]
    rfl
  · obtain ⟨h0, h1, h2, h3, h4, h5, h6, h7, h8, h9, h10⟩ := hagree c
    refine (Cert.ReferenceIdeal.Read.val_main_v33_eq _ _ _ _ _ _ _ _ _ _ _).trans ?_
    rw [Cert.ReferenceIdeal.RefValue.cell_eq, h0, h1, h2, h3, h4, h5, h6, h7, h8, h9, h10]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
